-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x8192 : Shape := ⟨2, ![2048, 8192]⟩
abbrev S8192 : Shape := ⟨1, ![8192]⟩
abbrev S1 : Shape := ⟨1, ![1]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4x2048x2048 .f32) (main_arg1 : FVec F S2048x8192 .f32) (main_arg2 : FVec F S8192 .f32) (main_arg3 : FVec F S1 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4x2048x2048 : Shape := ⟨3, ![4, 2048, 2048]⟩
abbrev S2048x8192 : Shape := ⟨2, ![2048, 8192]⟩
abbrev S8192 : Shape := ⟨1, ![8192]⟩
abbrev S1 : Shape := ⟨1, ![1]⟩
abbrev S8192x2048 : Shape := ⟨2, ![8192, 2048]⟩
abbrev S1x8192 : Shape := ⟨2, ![1, 8192]⟩
abbrev S_ : Shape := ⟨0, ![]⟩
abbrev S1x1 : Shape := ⟨2, ![1, 1]⟩
abbrev S8192x1 : Shape := ⟨2, ![8192, 1]⟩
abbrev S8192x8192 : Shape := ⟨2, ![8192, 8192]⟩
abbrev S4x2048x8192 : Shape := ⟨3, ![4, 2048, 8192]⟩
abbrev S2048x512 : Shape := ⟨2, ![2048, 512]⟩
abbrev S512x1024 : Shape := ⟨2, ![512, 1024]⟩
abbrev S2048x1 : Shape := ⟨2, ![2048, 1]⟩
abbrev S1x1024 : Shape := ⟨2, ![1, 1024]⟩
abbrev S2048x1024 : Shape := ⟨2, ![2048, 1024]⟩

abbrev nBuf : Space → Nat
  | .hbm => 26
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192, .f32⟩
  | .hbm, ⟨3, _⟩ => ⟨S1, .f32⟩
  | .hbm, ⟨4, _⟩ => ⟨S8192x2048, .f32⟩
  | .hbm, ⟨5, _⟩ => ⟨S1x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1x1, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S2048x8192, .f32⟩
  | .hbm, ⟨21, _⟩ => ⟨S_, .f32⟩
  | .hbm, ⟨22, _⟩ => ⟨S8192, .f32⟩
  | .hbm, ⟨23, _⟩ => ⟨S1x8192, .f32⟩
  | .hbm, ⟨24, _⟩ => ⟨S8192x8192, .f32⟩
  | .hbm, ⟨25, _⟩ => ⟨S4x2048x8192, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1, .f32⟩
  | .local _ .vmem, ⟨11, _⟩ => ⟨S2048x1024, .f32⟩
  | .local _ .vmem, ⟨12, _⟩ => ⟨S2048x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_cst_0 : Ref sig .tc := ⟨.hbm, 8, rfl⟩
abbrev main_call0_cst_1 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_cst_2 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_cst_3 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x2048_S8192x2048 : S4x2048x2048.ShapeCasts S8192x2048
  shapeCasts_S8192_S1x8192 : S8192.ShapeCasts S1x8192
  bcast_S_S1 : S_.BroadcastsInDim S1 (![] : Fin 0 → Fin S1.rank)
  shapeCasts_S1_S1x1 : S1.ShapeCasts S1x1
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S2048x8192_S8192_d0 : S2048x8192.ReducesTo [0] S8192
  bcast_S8192_S1x8192_1 : S8192.BroadcastsInDim S1x8192 (![1] : Fin 1 → Fin S1x8192.rank)
  shapeCasts_S8192x8192_S4x2048x8192 : S8192x8192.ShapeCasts S4x2048x8192
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S2048x1024_S2048x1024 : S2048x1024.ShapeCasts S2048x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x2048.size a
  hwx0_0 : ∀ i : grid0.Coords, EltTy.bits .f32 = 32 ∨ (Rect.block (s := S8192x2048) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x8192.size a
  hwx0_1 : ∀ i : grid0.Coords, EltTy.bits .f32 = 32 ∨ (Rect.block (s := S2048x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S8192x8192.size a
  hwx0_6 : ∀ i : grid0.Coords, EltTy.bits .f32 = 32 ∨ (Rect.block (s := S8192x8192) S2048x1024.size (cc0_transform_6 i) (hinb0_6 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_call0_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v8) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v15) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x8192 : Shape := ⟨2, ![2048, 8192]⟩
abbrev S8192 : Shape := ⟨1, ![8192]⟩
abbrev S1 : Shape := ⟨1, ![1]⟩
abbrev S4x2048x8192 : Shape := ⟨3, ![4, 2048, 8192]⟩
abbrev S_ : Shape := ⟨0, ![]⟩
abbrev S4x2048 : Shape := ⟨2, ![4, 2048]⟩
abbrev S4x2048x1 : Shape := ⟨3, ![4, 2048, 1]⟩
abbrev S1x8192 : Shape := ⟨2, ![1, 8192]⟩
abbrev S1x1x8192 : Shape := ⟨3, ![1, 1, 8192]⟩
abbrev S1x1x1 : Shape := ⟨3, ![1, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192, .f32⟩
  | .hbm, ⟨3, _⟩ => ⟨S1, .f32⟩
  | .hbm, ⟨4, _⟩ => ⟨S4x2048x8192, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S2048x8192, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S1x1x8192, .f32⟩
  | .hbm, ⟨14, _⟩ => ⟨S4x2048x8192, .f32⟩
  | .hbm, ⟨15, _⟩ => ⟨S4x2048x8192, .f32⟩
  | .hbm, ⟨16, _⟩ => ⟨S4x2048x8192, .f32⟩
  | .hbm, ⟨17, _⟩ => ⟨S_, .f32⟩
  | .hbm, ⟨18, _⟩ => ⟨S4x2048x8192, .f32⟩
  | .hbm, ⟨19, _⟩ => ⟨S4x2048x8192, .f32⟩
  | .hbm, ⟨20, _⟩ => ⟨S4x2048x8192, .f32⟩
  | .hbm, ⟨21, _⟩ => ⟨S4x2048x8192, .f32⟩
  | .hbm, ⟨22, _⟩ => ⟨S_, .f32⟩
  | .hbm, ⟨23, _⟩ => ⟨S4x2048x8192, .f32⟩
  | .hbm, ⟨24, _⟩ => ⟨S4x2048x8192, .f32⟩
  | .hbm, ⟨25, _⟩ => ⟨S4x2048x8192, .f32⟩
  | .hbm, ⟨26, _⟩ => ⟨S1x1x8192, .f32⟩
  | .hbm, ⟨27, _⟩ => ⟨S4x2048x8192, .f32⟩
  | .hbm, ⟨28, _⟩ => ⟨S4x2048x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1x1, .f32⟩
  | .hbm, ⟨38, _⟩ => ⟨S4x2048x8192, .f32⟩
  | .hbm, ⟨39, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  reducesTo_S2048x8192_S8192_d0 : S2048x8192.ReducesTo [0] S8192
  bcast_S8192_S1x8192_1 : S8192.BroadcastsInDim S1x8192 (![1] : Fin 1 → Fin S1x8192.rank)
  bcast_S1x8192_S1x1x8192_1_2 : S1x8192.BroadcastsInDim S1x1x8192 (![1, 2] : Fin 2 → Fin S1x1x8192.rank)
  bcast_S4x2048x1_S4x2048x8192_0_1_2 : S4x2048x1.BroadcastsInDim S4x2048x8192 (![0, 1, 2] : Fin 3 → Fin S4x2048x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  bcast_S8192_S1x1x8192_2 : S8192.BroadcastsInDim S1x1x8192 (![2] : Fin 1 → Fin S1x1x8192.rank)
  bcast_S_S1 : S_.BroadcastsInDim S1 (![] : Fin 0 → Fin S1.rank)
  bcast_S1_S1x1x1_2 : S1.BroadcastsInDim S1x1x1 (![2] : Fin 1 → Fin S1x1x1.rank)
  bcast_S1x1x1_S4x2048x8192_0_1_2 : S1x1x1.BroadcastsInDim S4x2048x8192 (![0, 1, 2] : Fin 3 → Fin S4x2048x8192.rank)
  dot_S4x2048x2048_S2048x8192_S4x2048x8192_2_0_01_1_n_n_wf : DotDims.WF S4x2048x2048 S2048x8192 S4x2048x8192 [2] [0] [0, 1] [1] [] []

variable [Facts₀]

def dot_S4x2048x2048_S2048x8192_S4x2048x8192_2_0_01_1_n_n : DotDims S4x2048x2048 S2048x8192 S4x2048x8192 where
  lhsContracting := [2]
  rhsContracting := [0]
  lhsNonContracting := [0, 1]
  rhsNonContracting := [1]
  lhsBatch := []
  rhsBatch := []
  wf := dot_S4x2048x2048_S2048x8192_S4x2048x8192_2_0_01_1_n_n_wf

class Facts : Prop extends Facts₀ where

variable [Facts]
-- ==== Proof.Pieces.lean ====
/-
  What one run of the kernel body leaves in the output block, in each of its three control cases, as a term over
  the blocks it loads — for any float instance.

  The body adds the product of the point's two input blocks into the output block, which stays resident over the
  last grid axis.  At the first step of that axis it first stores zeros (so the block it adds to is the zero block);
  at the last step it then rewrites the block by the normalisation.  Each case's stores cover the whole block, so
  the block's contents after the body are the last store's value, and a load placed after a store reads that
  store's value:
    first step   :  product-step (zero block)
    middle steps :  product-step (block as found)
    last step    :  normalise (product-step (block as found))
  where product-step is the second payload and normalise the third.
-/
import proofs.«114799_j48610439856164_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle step: the one covering store holds the product step over the block as found. -/
theorem out_B (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S2048x1024 .f32) (harg9 : arg9.IsWhole) (hc0 : ¬cond0_0 i) (hc1 : ¬cond0_1 i) (x0 : Vec F S2048x512 .f32) (x1 : Vec F S512x1024 .f32) (x2 : Vec F S2048x1 .f32) (x3 : Vec F S1x1024 .f32) (x4 : Vec F S1x1024 .f32) (x5 : Vec F S1x1 .f32) (xo6 : Vec F S2048x1024 .f32) :
    out0_B_6 c i arg3 harg3 arg4 harg4 arg5 harg5 arg6 harg6 arg7 harg7 arg8 harg8 arg9 harg9 hc0 hc1 x0 x1 x2 x3 x4 x5 xo6 = k0_pay2 x0 x1 xo6 := by
  unfold out0_B_6
  rw [View.read_writes_eq_canon _ _ _ (cover0_B_6 c i arg3 harg3 arg4 harg4 arg5 harg5 arg6 harg6 arg7 harg7 arg8 harg8 arg9 harg9 hc0 hc1 x0 x1 x2 x3 x4 x5 xo6)]
  unfold kernelRun0_B
  dsimp only
  rw [View.canon_unit_zero hz]
  simp only [View.readAt_eq_ld, harg3.read_unread, harg4.read_unread, harg9.read_unread,
    View.ld_unit_zero (S := S2048x512) hz, View.ld_unit_zero (S := S512x1024) hz, View.ld_unit_zero (S := S2048x1024) hz]

/-- The first step: zeros are stored, read back, and the product step over them is stored on top. -/
theorem out_A (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S2048x1024 .f32) (harg9 : arg9.IsWhole) (hc0 : cond0_0 i) (hc1 : ¬cond0_1 i) (x0 : Vec F S2048x512 .f32) (x1 : Vec F S512x1024 .f32) (x2 : Vec F S2048x1 .f32) (x3 : Vec F S1x1024 .f32) (x4 : Vec F S1x1024 .f32) (x5 : Vec F S1x1 .f32) :
    out0_A_6 c i arg3 harg3 arg4 harg4 arg5 harg5 arg6 harg6 arg7 harg7 arg8 harg8 arg9 harg9 hc0 hc1 x0 x1 x2 x3 x4 x5 = k0_pay2 x0 x1 (k0_pay1 (F := F)) := by
  unfold out0_A_6
  rw [View.read_writes_eq_canon _ _ _ (cover0_A_6 c i arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x512) hz, View.ld_unit_zero (S := S512x1024) hz]

/-- The last step: the product step is stored, read back, and its normalisation stored on top. -/
theorem out_C (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S2048x1024 .f32) (harg9 : arg9.IsWhole) (hc0 : ¬cond0_0 i) (hc1 : cond0_1 i) (x0 : Vec F S2048x512 .f32) (x1 : Vec F S512x1024 .f32) (x2 : Vec F S2048x1 .f32) (x3 : Vec F S1x1024 .f32) (x4 : Vec F S1x1024 .f32) (x5 : Vec F S1x1 .f32) (xo6 : Vec F S2048x1024 .f32) :
    out0_C_6 c i arg3 harg3 arg4 harg4 arg5 harg5 arg6 harg6 arg7 harg7 arg8 harg8 arg9 harg9 hc0 hc1 x0 x1 x2 x3 x4 x5 xo6 = k0_pay3 (k0_pay2 x0 x1 xo6) x2 x3 x4 x5 := by
  unfold out0_C_6
  rw [View.read_writes_eq_canon _ _ _ (cover0_C_6 c i arg3 harg3 arg4 harg4 arg5 harg5 arg6 harg6 arg7 harg7 arg8 harg8 arg9 harg9 hc0 hc1 x0 x1 x2 x3 x4 x5 xo6)]
  unfold kernelRun0_C
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread,
    harg7.read_unread, harg8.read_unread, harg9.read_unread,
    View.ld_unit_zero (S := S2048x512) hz, View.ld_unit_zero (S := S512x1024) hz, View.ld_unit_zero (S := S2048x1024) hz,
    View.ld_unit_zero (S := S2048x1) hz, View.ld_unit_zero (S := S1x1024) hz, View.ld_unit_zero (S := S1x1) hz]

end Cert.KernelIdeal.Pieces

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.Spec.lean ====
/-
  The function both programs compute, entry by entry, on the extended reals.

  With x the [8192, 2048] matrix of the input rows (the batch and sequence axes merged), w the [2048, 8192] weight
  matrix, y = x · w, and per row / per column the sums of squares  p(row) = 0 + Σ_d x(row,d)²,
  q(col) = 0 + Σ_d w(d,col)²,  the result at (row, col) is

      ( y² / ((p + q − 2·y) + ε) + bias(col) ) · scale,      scale = (√8192 / log 8193) ^ α.

  One side contracts the 2048 inner positions at once; the other cuts them into four blocks of 512 and adds the
  four partial products, first to last, onto a zero:  (((0 + d₀) + d₁) + d₂) + d₃.  On the extended reals addition is
  associative and commutative with no side condition, so the chain is the whole contraction (`chain_eq_dot`) — no
  finiteness of the inputs is used anywhere.
  One side writes the logarithm's argument as 1.0 + 8192.0, the other as 8193.0: the three words denote the reals
  1, 8192 and 8193 (`one_add_8192`).
-/
import Idealize.ShloMosaic.PureOps.Ideal
import Idealize.ShloMosaic.Lib.ValueIdx
import proofs.«114799_j48610439856164_2_alg».proof.Proof.LibBlockSum

noncomputable section

open scoped BigOperators

namespace Cert.Spec

open Idealize.ShloMosaic Idealize.ShloMosaic.ValueIdx

/-- Row `r` of row block `i` (four blocks of 2048 rows). -/
def rowIx (i : Fin 4) (r : Fin 2048) : Fin 8192 := ⟨i.val * 2048 + r.val, by have := i.isLt; have := r.isLt; omega⟩
/-- Column `e` of column block `j` (eight blocks of 1024 columns). -/
def colIx (j : Fin 8) (e : Fin 1024) : Fin 8192 := ⟨j.val * 1024 + e.val, by have := j.isLt; have := e.isLt; omega⟩
/-- Inner position `b` of inner block `k` (four blocks of 512). -/
def depIx (k : Fin 4) (b : Fin 512) : Fin 2048 := ⟨k.val * 512 + b.val, by have := k.isLt; have := b.isLt; omega⟩

theorem rowIx_val (i : Fin 4) (r : Fin 2048) : (rowIx i r).val = i.val * 2048 + r.val := rfl
theorem colIx_val (j : Fin 8) (e : Fin 1024) : (colIx j e).val = j.val * 1024 + e.val := rfl
theorem depIx_val (k : Fin 4) (b : Fin 512) : (depIx k b).val = k.val * 512 + b.val := rfl

/-- The words the programs spell: +0.0, 2.0 and the float nearest 1e-5. -/
abbrev zeroW : EReal := Ideal.ofBits .f32 0x00000000#32
abbrev twoW : EReal := Ideal.ofBits .f32 0x40000000#32
abbrev epsW : EReal := Ideal.ofBits .f32 0x3727C5AC#32

theorem zeroW_eq : zeroW = 0 := by
  simp [Ideal.ofBits, Ideal.ieee]

/-- The share of inner block `k` in entry (row, col) of the product. -/
def blockDot (X : Fin 8192 → Fin 2048 → EReal) (W : Fin 2048 → Fin 8192 → EReal) (row col : Fin 8192) (k : Fin 4) : EReal :=
  ∑ b : Fin 512, X row (depIx k b) * W (depIx k b) col

/-- Entry (row, col) of the product: the contraction over all 2048 inner positions. -/
def dot (X : Fin 8192 → Fin 2048 → EReal) (W : Fin 2048 → Fin 8192 → EReal) (row col : Fin 8192) : EReal :=
  ∑ d : Fin 2048, X row d * W d col

/-- The contraction is the sum of its four blocks' shares. -/
theorem dot_eq_sum_blocks (X : Fin 8192 → Fin 2048 → EReal) (W : Fin 2048 → Fin 8192 → EReal) (row col : Fin 8192) :
    dot X W row col = ∑ k : Fin 4, blockDot X W row col k := by
  unfold dot blockDot
  exact sum_blockRows 4 512 (fun d : Fin (4 * 512) => X row d * W d col)

/-- The four shares added first to last onto the zero word are the contraction. -/
theorem chain_eq_dot (X : Fin 8192 → Fin 2048 → EReal) (W : Fin 2048 → Fin 8192 → EReal) (row col : Fin 8192) :
    zeroW + blockDot X W row col 0 + blockDot X W row col 1 + blockDot X W row col 2 + blockDot X W row col 3
      = dot X W row col := by
  rw [dot_eq_sum_blocks, Fin.sum_univ_four, zeroW_eq, zero_add]

/-- The sum of squares of a row of x, and of a column of w, each from the zero word. -/
def rowSq (X : Fin 8192 → Fin 2048 → EReal) (row : Fin 8192) : EReal := zeroW + ∑ d : Fin 2048, X row d * X row d
def colSq (W : Fin 2048 → Fin 8192 → EReal) (col : Fin 8192) : EReal := zeroW + ∑ d : Fin 2048, W d col * W d col

/-- The normalisation of a product entry `y` by the two sums of squares, then the bias and the scale. -/
def norm (y p q bias s : EReal) : EReal := (Ideal.div (y * y) (p + q - twoW * y + epsW) + bias) * s

/-- The scale: (√8192 / log 8193) raised to α, the base written with the words 8192.0 and 8193.0. -/
def scaleOf (α : EReal) : EReal :=
  Ideal.pow (Ideal.div (Ideal.sqrt (Ideal.ofBits .f32 0x46000000#32)) (Ideal.log (Ideal.ofBits .f32 0x46000400#32))) α

/-- The words 1.0, 8192.0 and 8193.0 denote those reals, so the first two add up to the third. -/
theorem one_add_8192 :
    Ideal.ofBits .f32 0x3F800000#32 + Ideal.ofBits .f32 0x46000000#32 = Ideal.ofBits .f32 0x46000400#32 := by
  have h1 : Ideal.ofBits .f32 0x3F800000#32 = ((1 : ℝ) : EReal) := by
    simp [Ideal.ofBits, Ideal.ieee, -EReal.coe_mul]; norm_num
  have h2 : Ideal.ofBits .f32 0x46000000#32 = ((8192 : ℝ) : EReal) := by
    simp [Ideal.ofBits, Ideal.ieee, -EReal.coe_mul]; norm_num
  have h3 : Ideal.ofBits .f32 0x46000400#32 = ((8193 : ℝ) : EReal) := by
    simp [Ideal.ofBits, Ideal.ieee, -EReal.coe_mul]; norm_num
  rw [h1, h2, h3, ← EReal.coe_add]
  norm_num

/-- The result at (row, col). -/
def result (X : Fin 8192 → Fin 2048 → EReal) (W : Fin 2048 → Fin 8192 → EReal) (bias : Fin 8192 → EReal) (α : EReal)
    (row col : Fin 8192) : EReal :=
  norm (dot X W row col) (rowSq X row) (colSq W col) (bias col) (scaleOf α)

/-- The result at (i, s, f) from the four arguments' entries: the input at (i, s, ·), the weights at (·, f), the
    bias at f and the exponent. -/
def finalAt (A : Fin 4 → Fin 2048 → Fin 2048 → EReal) (W : Fin 2048 → Fin 8192 → EReal) (bias : Fin 8192 → EReal) (α : EReal)
    (i : Fin 4) (s : Fin 2048) (f : Fin 8192) : EReal :=
  norm (∑ d : Fin 2048, A i s d * W d f) (zeroW + ∑ d : Fin 2048, A i s d * A i s d)
    (zeroW + ∑ d : Fin 2048, W d f * W d f) (bias f) (scaleOf α)

/-- The whole result array as a function of the four argument arrays. -/
def final (a0 : (⟨3, ![4, 2048, 2048]⟩ : Shape).Idx → EReal) (a1 : (⟨2, ![2048, 8192]⟩ : Shape).Idx → EReal)
    (a2 : (⟨1, ![8192]⟩ : Shape).Idx → EReal) (a3 : (⟨1, ![1]⟩ : Shape).Idx → EReal) :
    (⟨3, ![4, 2048, 8192]⟩ : Shape).Idx → EReal :=
  fun idx => finalAt (fun i s d => a0 (ix3 i s d)) (fun d f => a1 (ix2 d f)) (fun f => a2 (ix1 f)) (a3 (ix1 (0 : Fin 1)))
    ⟨(idx 0).val, (idx 0).isLt⟩ ⟨(idx 1).val, (idx 1).isLt⟩ ⟨(idx 2).val, (idx 2).isLt⟩

theorem final_apply (a0 : (⟨3, ![4, 2048, 2048]⟩ : Shape).Idx → EReal) (a1 : (⟨2, ![2048, 8192]⟩ : Shape).Idx → EReal)
    (a2 : (⟨1, ![8192]⟩ : Shape).Idx → EReal) (a3 : (⟨1, ![1]⟩ : Shape).Idx → EReal) (i : Fin 4) (s : Fin 2048) (f : Fin 8192) :
    final a0 a1 a2 a3 (ix3 i s f)
      = finalAt (fun i s d => a0 (ix3 i s d)) (fun d f => a1 (ix2 d f)) (fun f => a2 (ix1 f)) (a3 (ix1 (0 : Fin 1))) i s f := rfl

theorem norm_congr {y y' p p' q q' b b' s s' : EReal} (hy : y = y') (hp : p = p') (hq : q = q') (hb : b = b') (hs : s = s') :
    norm y p q b s = norm y' p' q' b' s' := by
  subst hy hp hq hb hs; rfl

end Cert.Spec

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.Payload.lean ====
/-
  The kernel body's three stored values, read at an entry (r, e) of the [2048, 1024] output block, on the
  extended reals.

    zeros         :  the zero word.
    product step  :  acc(r, e) + Σ_{b < 512} a(r, b) · w(b, e)   — the block found, plus the product of the point's
                     [2048, 512] and [512, 1024] input blocks (a plain matrix product into a zero accumulator).
    normalisation :  ( y² / ((p(r) + q(e) − 2·y) + ε) + bias(e) ) · s   with y = acc(r, e), p the [2048, 1] column of
                     row sums of squares spread along the row, q and bias the [1, 1024] rows spread down the
                     columns, and s the one entry of the [1, 1] scale block.
-/
import proofs.«114799_j48610439856164_2_alg».proof.Proof.Gen.KernelIdeal.Skeleton
import proofs.«114799_j48610439856164_2_alg».proof.Proof.Spec
import proofs.«114799_j48610439856164_2_alg».proof.Proof.LibPlainMatmul
import proofs.«114799_j48610439856164_2_alg».proof.Proof.LibKeepdims
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open scoped BigOperators

namespace Cert.KernelIdeal.Payload

open Cert.KernelIdeal Cert.KernelIdeal.Gen Idealize.ShloMosaic.ValueIdx

/-- The zero block holds the zero word at every entry. -/
theorem pay1_apply (r : Fin 2048) (e : Fin 1024) :
    k0_pay1 (F := Ideal) (ix2 r e) = Cert.Spec.zeroW := rfl

/-- The product step at (r, e): the accumulator's entry plus the row-by-column product of the two input blocks. -/
theorem pay2_apply (v3 : Vec Ideal S2048x512 .f32) (v5 : Vec Ideal S512x1024 .f32) (v6 : Vec Ideal S2048x1024 .f32)
    (r : Fin 2048) (e : Fin 1024) :
    k0_pay2 (F := Ideal) v3 v5 v6 (ix2 r e) = v6 (ix2 r e) + ∑ b : Fin 512, v3 (ix2 r b) * v5 (ix2 b e) := by
  unfold k0_pay2
  rw [shapeCast_self, shapeCast_self]
  refine (addf_apply _ _ _).trans ?_
  exact congrArg (v6 (ix2 r e) + ·)
    (matmul_plain_zero_apply dot_S2048x512_S512x1024_S2048x1024_1_0_0_1_n_n rfl (some .fp32) v3 v5 r e)

/-- The normalisation at (r, e). -/
theorem pay3_apply (v14 : Vec Ideal S2048x1024 .f32) (v16 : Vec Ideal S2048x1 .f32) (v18 v30 : Vec Ideal S1x1024 .f32)
    (v34 : Vec Ideal S1x1 .f32) (r : Fin 2048) (e : Fin 1024) :
    k0_pay3 (F := Ideal) v14 v16 v18 v30 v34 (ix2 r e)
      = Cert.Spec.norm (v14 (ix2 r e)) (v16 (ix2 r (0 : Fin 1))) (v18 (ix2 (0 : Fin 1) e)) (v30 (ix2 (0 : Fin 1) e))
          (v34 (ix2 (0 : Fin 1) (0 : Fin 1))) := by
  have hs : extractAt ![0, 0] v34 inpos_S1x1_p0_0 = v34 (ix2 (0 : Fin 1) (0 : Fin 1)) :=
    congrArg v34 (funext fun a => Fin.ext (by match a with | ⟨0, _⟩ => rfl | ⟨1, _⟩ => rfl))
  unfold k0_pay3 Cert.Spec.norm
  simp only [mulf_apply, addf_apply, subf_apply, divf_apply, broadcast_apply, shapeCast_self, Ideal.ofBits_def]
  rw [Cert.LibKeepdims.broadcastTo_a1_ac_apply v16 broadcasts_S2048x1_S2048x1024 r e,
    broadcastTo_1b_ab_apply v18 broadcasts_S1x1024_S2048x1024 r e,
    broadcastTo_1b_ab_apply v30 broadcasts_S1x1024_S2048x1024 r e, hs]

end Cert.KernelIdeal.Payload

end
-- ==== Proof.Blocks.lean ====
/-
  What the kernel's input windows hold at a grid point, entry by entry, in terms of the arrays the launch finds.

  The grid is 4 × 8 × 4: point number t has row-block coordinate i = t / 32, column-block coordinate
  j = (t / 4) mod 8 and inner-block coordinate k = t mod 4.  A window's block at a point starts at (block index ×
  block extent) on each axis, so an entry of the block is the array's entry at that offset plus the entry's own
  position:
    left operand   [2048, 512]  of [8192, 2048]  at block (i, k)
    right operand  [512, 1024]  of [2048, 8192]  at block (k, j)
    row sums       [2048, 1]    of [8192, 1]     at block (i, 0)
    column sums    [1, 1024]    of [1, 8192]     at block (0, j)
    bias           [1, 1024]    of [1, 8192]     at block (0, j)
    scale          [1, 1]       of [1, 1]        at block (0, 0).
  The block indices are decided once over the 128 points.
-/
import proofs.«114799_j48610439856164_2_alg».proof.Proof.Gen.KernelIdeal.Frame
import proofs.«114799_j48610439856164_2_alg».proof.Proof.Spec
import Idealize.ShloMosaic.Lib.Pipeline.Value

noncomputable section

open Idealize.ShloMosaic Idealize.ShloMosaic.TcCoe Idealize.SL.Sem

namespace Cert.KernelIdeal.Blocks

open Cert.KernelIdeal Cert.KernelIdeal.Gen Idealize.ShloMosaic.ValueIdx Cert.Spec

variable {F : FTy → Type} [FloatOps F]
variable (m : (ℓ : Loc nD τ sig) → Buf (Elt F) ℓ)

theorem lt128 (t : Fin cfg0.N) : t.val < 128 := lt_of_lt_of_eq t.isLt (show cfg0.N = 128 from N_0)

/-- The three grid coordinates of point number `t`. -/
def pi (t : Fin cfg0.N) : Fin 4 := ⟨t.val / 32, by have := lt128 t; omega⟩
def pj (t : Fin cfg0.N) : Fin 8 := ⟨t.val / 4 % 8, by omega⟩
def pk (t : Fin cfg0.N) : Fin 4 := ⟨t.val % 4, by omega⟩

theorem pi_val (t : Fin cfg0.N) : (pi t).val = t.val / 32 := rfl
theorem pj_val (t : Fin cfg0.N) : (pj t).val = t.val / 4 % 8 := rfl
theorem pk_val (t : Fin cfg0.N) : (pk t).val = t.val % 4 := rfl

/-- The left operand's block at a point: rows of row block i, inner positions of inner block k. -/
theorem idx0 : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)

theorem blk0_apply (c : Dev nD) (t : Fin cfg0.N) (r : Fin 2048) (b : Fin 512) :
    (iblk m c 0 t : Vec F S2048x512 .f32) (ix2 r b)
      = (V m c main_call0_v0 : S8192x2048.Idx → Elt F .f32) (ix2 (rowIx (pi t) r) (depIx (pk t) b)) := by
  have hi := idx0 t
  unfold iblk
  rw [View.read_apply]
  show V m c main_call0_v0 _ = V m c main_call0_v0 _
  congr 1
  funext a
  apply Fin.ext
  match a with
  | ⟨0, _⟩ => show win0_0.index t 0 * 2048 + 1 * r.val = _; rw [hi.1]; show t.val / 32 * 2048 + 1 * r.val = t.val / 32 * 2048 + r.val; omega
  | ⟨1, _⟩ => show win0_0.index t 1 * 512 + 1 * b.val = _; rw [hi.2]; show t.val % 4 * 512 + 1 * b.val = t.val % 4 * 512 + b.val; omega

/-- The right operand's block: inner positions of inner block k, columns of column block j. -/
theorem idx1 : ∀ t : Fin cfg0.N, win0_1.index t (0 : Fin 2) = t.val % 4 ∧ win0_1.index t (1 : Fin 2) = t.val / 4 % 8 :=
  (by decide +kernel : ∀ t : Fin grid0.N, win0_1.index t (0 : Fin 2) = t.val % 4 ∧ win0_1.index t (1 : Fin 2) = t.val / 4 % 8)

theorem blk1_apply (c : Dev nD) (t : Fin cfg0.N) (b : Fin 512) (e : Fin 1024) :
    (iblk m c 1 t : Vec F S512x1024 .f32) (ix2 b e)
      = (V m c main_arg1 : S2048x8192.Idx → Elt F .f32) (ix2 (depIx (pk t) b) (colIx (pj t) e)) := by
  have hi := idx1 t
  unfold iblk
  rw [View.read_apply]
  show V m c main_arg1 _ = V m c main_arg1 _
  congr 1
  funext a
  apply Fin.ext
  match a with
  | ⟨0, _⟩ => show win0_1.index t 0 * 512 + 1 * b.val = _; rw [hi.1]; show t.val % 4 * 512 + 1 * b.val = t.val % 4 * 512 + b.val; omega
  | ⟨1, _⟩ => show win0_1.index t 1 * 1024 + 1 * e.val = _; rw [hi.2]; show t.val / 4 % 8 * 1024 + 1 * e.val = t.val / 4 % 8 * 1024 + e.val; omega

/-- The column of row sums of squares: rows of row block i. -/
theorem idx2 : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

theorem blk2_apply (c : Dev nD) (t : Fin cfg0.N) (r : Fin 2048)  :
    (iblk m c 2 t : Vec F S2048x1 .f32) (ix2 r (0 : Fin 1))
      = (V m c main_call0_v11 : S8192x1.Idx → Elt F .f32) (ix2 (rowIx (pi t) r) (0 : Fin 1)) := by
  have hi := idx2 t
  unfold iblk
  rw [View.read_apply]
  show V m c main_call0_v11 _ = V m c main_call0_v11 _
  congr 1
  funext a
  apply Fin.ext
  match a with
  | ⟨0, _⟩ => show win0_2.index t 0 * 2048 + 1 * r.val = _; rw [hi.1]; show t.val / 32 * 2048 + 1 * r.val = t.val / 32 * 2048 + r.val; omega
  | ⟨1, _⟩ => show win0_2.index t 1 * 1 + 1 * 0 = _; rw [hi.2]; rfl

/-- The row of column sums of squares: columns of column block j. -/
theorem idx3 : ∀ t : Fin cfg0.N, win0_3.index t (0 : Fin 2) = 0 ∧ win0_3.index t (1 : Fin 2) = t.val / 4 % 8 :=
  (by decide +kernel : ∀ t : Fin grid0.N, win0_3.index t (0 : Fin 2) = 0 ∧ win0_3.index t (1 : Fin 2) = t.val / 4 % 8)

theorem blk3_apply (c : Dev nD) (t : Fin cfg0.N)  (e : Fin 1024) :
    (iblk m c 3 t : Vec F S1x1024 .f32) (ix2 (0 : Fin 1) e)
      = (V m c main_call0_v14 : S1x8192.Idx → Elt F .f32) (ix2 (0 : Fin 1) (colIx (pj t) e)) := by
  have hi := idx3 t
  unfold iblk
  rw [View.read_apply]
  show V m c main_call0_v14 _ = V m c main_call0_v14 _
  congr 1
  funext a
  apply Fin.ext
  match a with
  | ⟨0, _⟩ => show win0_3.index t 0 * 1 + 1 * 0 = _; rw [hi.1]; rfl
  | ⟨1, _⟩ => show win0_3.index t 1 * 1024 + 1 * e.val = _; rw [hi.2]; show t.val / 4 % 8 * 1024 + 1 * e.val = t.val / 4 % 8 * 1024 + e.val; omega

/-- The bias row: columns of column block j. -/
theorem idx4 : ∀ t : Fin cfg0.N, win0_4.index t (0 : Fin 2) = 0 ∧ win0_4.index t (1 : Fin 2) = t.val / 4 % 8 :=
  (by decide +kernel : ∀ t : Fin grid0.N, win0_4.index t (0 : Fin 2) = 0 ∧ win0_4.index t (1 : Fin 2) = t.val / 4 % 8)

theorem blk4_apply (c : Dev nD) (t : Fin cfg0.N)  (e : Fin 1024) :
    (iblk m c 4 t : Vec F S1x1024 .f32) (ix2 (0 : Fin 1) e)
      = (V m c main_call0_v1 : S1x8192.Idx → Elt F .f32) (ix2 (0 : Fin 1) (colIx (pj t) e)) := by
  have hi := idx4 t
  unfold iblk
  rw [View.read_apply]
  show V m c main_call0_v1 _ = V m c main_call0_v1 _
  congr 1
  funext a
  apply Fin.ext
  match a with
  | ⟨0, _⟩ => show win0_4.index t 0 * 1 + 1 * 0 = _; rw [hi.1]; rfl
  | ⟨1, _⟩ => show win0_4.index t 1 * 1024 + 1 * e.val = _; rw [hi.2]; show t.val / 4 % 8 * 1024 + 1 * e.val = t.val / 4 % 8 * 1024 + e.val; omega

/-- The scale: the one entry, at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem blk5_apply (c : Dev nD) (t : Fin cfg0.N)   :
    (iblk m c 5 t : Vec F S1x1 .f32) (ix2 (0 : Fin 1) (0 : Fin 1))
      = (V m c main_call0_v8 : S1x1.Idx → Elt F .f32) (ix2 (0 : Fin 1) (0 : Fin 1)) := by
  have hi := idx5 t
  unfold iblk
  rw [View.read_apply]
  show V m c main_call0_v8 _ = V m c main_call0_v8 _
  congr 1
  funext a
  apply Fin.ext
  match a with
  | ⟨0, _⟩ => show win0_5.index t 0 * 1 + 1 * 0 = _; rw [hi.1]; rfl
  | ⟨1, _⟩ => show win0_5.index t 1 * 1 + 1 * 0 = _; rw [hi.2]; rfl

end Cert.KernelIdeal.Blocks

end
-- ==== Proof.Accum.lean ====
/-
  What the output block holds after each grid point, on the extended reals.

  The output block of row block i and column block j stays in place while the inner-block coordinate k runs
  0, 1, 2, 3, and one run of the body adds inner block k's share of the product to it (`step`).  So with
  d_k = Σ_{b < 512} x(row, 512k + b) · w(512k + b, col) for the block's entry at (row, col):
    after k = 0 :  0 + d₀                      (the block was just zeroed)
    after k = 1 :  (0 + d₀) + d₁
    after k = 2 :  ((0 + d₀) + d₁) + d₂
    after k = 3 :  the normalisation of (((0 + d₀) + d₁) + d₂) + d₃, which is the normalisation of the whole
                   contraction Σ_{d < 2048} x(row, d) · w(d, col)  — addition on the extended reals re-associates freely.
  Each line uses the line before at the preceding point, which has the same i and j.
-/
import proofs.«114799_j48610439856164_2_alg».proof.Proof.Pieces
import proofs.«114799_j48610439856164_2_alg».proof.Proof.Payload
import proofs.«114799_j48610439856164_2_alg».proof.Proof.Blocks
import proofs.«114799_j48610439856164_2_alg».proof.Proof.Spec

noncomputable section

open Idealize.ShloMosaic Idealize.ShloMosaic.TcCoe Idealize.SL.Sem
open scoped BigOperators

namespace Cert.KernelIdeal.Accum

open Cert.KernelIdeal Cert.KernelIdeal.Gen Idealize.ShloMosaic.ValueIdx Cert.Spec Cert.KernelIdeal.Blocks

variable (m : (ℓ : Loc nD τ sig) → Buf (Elt Ideal) ℓ)

/-- The two operands of the product as the launch finds them, as matrices of extended reals. -/
def lhsM (c : Dev nD) : Fin 8192 → Fin 2048 → EReal :=
  fun row d => (V m c main_call0_v0 : S8192x2048.Idx → Elt Ideal .f32) (ix2 row d)
def rhsM (c : Dev nD) : Fin 2048 → Fin 8192 → EReal :=
  fun d col => (V m c main_arg1 : S2048x8192.Idx → Elt Ideal .f32) (ix2 d col)

/-- One product step at point `t` adds the share of the point's inner block to the accumulator's entry. -/
theorem step (c : Dev nD) (t : Fin cfg0.N) (acc : Vec Ideal S2048x1024 .f32) (r : Fin 2048) (e : Fin 1024) :
    k0_pay2 (F := Ideal) (iblk m c 0 t) (iblk m c 1 t) acc (ix2 r e)
      = acc (ix2 r e) + blockDot (lhsM m c) (rhsM m c) (rowIx (pi t) r) (colIx (pj t) e) (pk t) := by
  refine (Payload.pay2_apply (iblk m c 0 t) (iblk m c 1 t) acc r e).trans ?_
  refine congrArg (acc (ix2 r e) + ·) (Finset.sum_congr rfl fun b _ => ?_)
  rw [blk0_apply m c t r b, blk1_apply m c t b e]
  rfl

/-- The point before `t` on the grid's last axis. -/
def prev (t : Fin cfg0.N) : Fin cfg0.N := ⟨t.val - 1, Nat.lt_of_le_of_lt (Nat.sub_le _ _) t.isLt⟩

theorem pi_prev (t : Fin cfg0.N) (h : ¬t.val % 4 = 0) : pi (prev t) = pi t :=
  Fin.ext (by show (t.val - 1) / 32 = t.val / 32; omega)
theorem pj_prev (t : Fin cfg0.N) (h : ¬t.val % 4 = 0) : pj (prev t) = pj t :=
  Fin.ext (by show (t.val - 1) / 4 % 8 = t.val / 4 % 8; omega)

/-- After the first inner block: zero plus its share. -/
theorem acc0 (c : Dev nD) (t : Fin cfg0.N) (hk : t.val % 4 = 0) (r : Fin 2048) (e : Fin 1024) :
    outsAt0 m c t.val t.isLt (ix2 r e) = zeroW + blockDot (lhsM m c) (rhsM m c) (rowIx (pi t) r) (colIx (pj t) e) 0 := by
  have h1 : ¬t.val % 4 = 3 := by omega
  have hA := outsAt0_A m c t hk h1
  have hP := Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr hk) (fun h => h1 ((hcond0_1 t).mp h)) (iblk m c 0 t) (iblk m c 1 t) (iblk m c 2 t) (iblk m c 3 t) (iblk m c 4 t) (iblk m c 5 t)
  refine (congrFun (hA.trans hP) (ix2 r e)).trans ?_
  refine (step m c t _ r e).trans ?_
  rw [show pk t = 0 from Fin.ext hk]
  rfl

/-- After the second. -/
theorem acc1 (c : Dev nD) (t : Fin cfg0.N) (hk : t.val % 4 = 1) (r : Fin 2048) (e : Fin 1024) :
    outsAt0 m c t.val t.isLt (ix2 r e) = zeroW + blockDot (lhsM m c) (rhsM m c) (rowIx (pi t) r) (colIx (pj t) e) 0 + blockDot (lhsM m c) (rhsM m c) (rowIx (pi t) r) (colIx (pj t) e) 1 := by
  have h0 : ¬t.val % 4 = 0 := by omega
  have h1 : ¬t.val % 4 = 3 := by omega
  have hB := outsAt0_B m c t h0 h1
  have hP := Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt))
  refine (congrFun (hB.trans hP) (ix2 r e)).trans ?_
  refine (step m c t _ r e).trans ?_
  have hp := acc0 m c (prev t) (by show (t.val - 1) % 4 = 0; omega) r e
  rw [pi_prev t h0, pj_prev t h0] at hp
  rw [show pk t = 1 from Fin.ext hk]
  exact congrArg (· + blockDot (lhsM m c) (rhsM m c) (rowIx (pi t) r) (colIx (pj t) e) 1) hp

/-- After the third. -/
theorem acc2 (c : Dev nD) (t : Fin cfg0.N) (hk : t.val % 4 = 2) (r : Fin 2048) (e : Fin 1024) :
    outsAt0 m c t.val t.isLt (ix2 r e) = zeroW + blockDot (lhsM m c) (rhsM m c) (rowIx (pi t) r) (colIx (pj t) e) 0 + blockDot (lhsM m c) (rhsM m c) (rowIx (pi t) r) (colIx (pj t) e) 1 + blockDot (lhsM m c) (rhsM m c) (rowIx (pi t) r) (colIx (pj t) e) 2 := by
  have h0 : ¬t.val % 4 = 0 := by omega
  have h1 : ¬t.val % 4 = 3 := by omega
  have hB := outsAt0_B m c t h0 h1
  have hP := Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt))
  refine (congrFun (hB.trans hP) (ix2 r e)).trans ?_
  refine (step m c t _ r e).trans ?_
  have hp := acc1 m c (prev t) (by show (t.val - 1) % 4 = 1; omega) r e
  rw [pi_prev t h0, pj_prev t h0] at hp
  rw [show pk t = 2 from Fin.ext hk]
  exact congrArg (· + blockDot (lhsM m c) (rhsM m c) (rowIx (pi t) r) (colIx (pj t) e) 2) hp

/-- After the last inner block: the normalisation of the whole contraction, by the row's and the column's sums of
    squares, the column's bias and the scale, each read from the array the launch finds. -/
theorem out3 (c : Dev nD) (t : Fin cfg0.N) (hk : t.val % 4 = 3) (r : Fin 2048) (e : Fin 1024) :
    outsAt0 m c t.val t.isLt (ix2 r e)
      = Cert.Spec.norm (dot (lhsM m c) (rhsM m c) (rowIx (pi t) r) (colIx (pj t) e))
          ((V m c main_call0_v11 : S8192x1.Idx → Elt Ideal .f32) (ix2 (rowIx (pi t) r) (0 : Fin 1)))
          ((V m c main_call0_v14 : S1x8192.Idx → Elt Ideal .f32) (ix2 (0 : Fin 1) (colIx (pj t) e)))
          ((V m c main_call0_v1 : S1x8192.Idx → Elt Ideal .f32) (ix2 (0 : Fin 1) (colIx (pj t) e)))
          ((V m c main_call0_v8 : S1x1.Idx → Elt Ideal .f32) (ix2 (0 : Fin 1) (0 : Fin 1))) := by
  have h0 : ¬t.val % 4 = 0 := by omega
  have hC := outsAt0_C m c t h0 hk
  have hP := Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr hk) (iblk m c 0 t) (iblk m c 1 t) (iblk m c 2 t) (iblk m c 3 t) (iblk m c 4 t) (iblk m c 5 t) (outsAt0 m c (t.val - 1) (Nat.lt_of_le_of_lt (Nat.sub_le _ _) t.isLt))
  refine (congrFun (hC.trans hP) (ix2 r e)).trans ?_
  refine (Payload.pay3_apply (k0_pay2 (F := Ideal) (iblk m c 0 t) (iblk m c 1 t) (outsAt0 m c (t.val - 1) (Nat.lt_of_le_of_lt (Nat.sub_le _ _) t.isLt)))
    (iblk m c 2 t) (iblk m c 3 t) (iblk m c 4 t) (iblk m c 5 t) r e).trans ?_
  refine norm_congr ?_ (blk2_apply m c t r) (blk3_apply m c t e) (blk4_apply m c t e) (blk5_apply m c t)
  refine (step m c t _ r e).trans ?_
  have hp := acc2 m c (prev t) (by show (t.val - 1) % 4 = 2; omega) r e
  rw [pi_prev t h0, pj_prev t h0] at hp
  rw [show pk t = 3 from Fin.ext hk]
  refine (congrArg (· + blockDot (lhsM m c) (rhsM m c) (rowIx (pi t) r) (colIx (pj t) e) 3) hp).trans ?_
  exact chain_eq_dot (lhsM m c) (rhsM m c) (rowIx (pi t) r) (colIx (pj t) e)

end Cert.KernelIdeal.Accum

end
-- ==== Proof.HostPrefix.lean ====
/-
  The arrays the kernel launch finds, which the operations in front of it compute from the four arguments, read at an
  entry on the extended reals.

    x, the left operand : the input with its batch and sequence axes merged, x(i·2048 + s, d) = input(i, s, d)
                          (a reshape keeps row-major positions).
    row sums            : at (row, 0), 0 + Σ_d x(row, d)·x(row, d)   (a sum along the last axis, kept as a column).
    column sums         : at (0, col), 0 + Σ_d w(d, col)·w(d, col)   (a sum along the first axis, kept as a row).
    bias row            : at (0, col), bias(col).
    scale               : at (0, 0), (√8192 / log(1.0 + 8192.0)) ^ α(0), which is the scale written with 8193.0.
  The right operand is the weight argument itself.
-/
import proofs.«114799_j48610439856164_2_alg».proof.Proof.Gen.KernelIdeal.Frame
import proofs.«114799_j48610439856164_2_alg».proof.Proof.Spec
import Idealize.ShloMosaic.Lib.Pipeline.Value
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem
open scoped BigOperators

namespace Cert.KernelIdeal.HostPrefix

open Cert.KernelIdeal Cert.KernelIdeal.Gen Idealize.ShloMosaic.ValueIdx Cert.Spec

section terms

variable {F : FTy → Type} [FloatOps F]
variable (m : (ℓ : Loc nD τ sig) → Buf (Elt F) ℓ)

/-- The input with its two leading axes merged. -/
def merged (a0 : Vec F S4x2048x2048 .f32) : Vec F S8192x2048 .f32 :=
  shapeCast S8192x2048 a0 shapeCasts_S4x2048x2048_S8192x2048

theorem V_v0 (c : Dev nD) : (V m c main_call0_v0 : S8192x2048.Idx → Elt F .f32)
    = merged (m ((c : Thread nD τ).loc main_arg0)) := by
  show StableHlo.after hostOps0 (fun b => m (c, b)) (Proc.devRef .tc main_call0_v0) = _
  after_results; rfl

theorem V_v11 (c : Dev nD) : (V m c main_call0_v11 : S8192x1.Idx → Elt F .f32)
    = broadcastInDim S8192x1 ![0] bcast_S8192_S8192x1_0
        (Host.reduceAdd (mulf (merged (m ((c : Thread nD τ).loc main_arg0))) (merged (m ((c : Thread nD τ).loc main_arg0))))
          (constant S_ .f32 0x00000000#32) reducesTo_S8192x2048_S8192_d1 h_S_) := by
  show StableHlo.after hostOps0 (fun b => m (c, b)) (Proc.devRef .tc main_call0_v11) = _
  after_results; rfl

theorem V_v14 (c : Dev nD) : (V m c main_call0_v14 : S1x8192.Idx → Elt F .f32)
    = broadcastInDim S1x8192 ![1] bcast_S8192_S1x8192_1
        (Host.reduceAdd (mulf (m ((c : Thread nD τ).loc main_arg1)) (m ((c : Thread nD τ).loc main_arg1)))
          (constant S_ .f32 0x00000000#32) reducesTo_S2048x8192_S8192_d0 h_S_) := by
  show StableHlo.after hostOps0 (fun b => m (c, b)) (Proc.devRef .tc main_call0_v14) = _
  after_results; rfl

theorem V_v1 (c : Dev nD) : (V m c main_call0_v1 : S1x8192.Idx → Elt F .f32)
    = shapeCast S1x8192 (m ((c : Thread nD τ).loc main_arg2)) shapeCasts_S8192_S1x8192 := by
  show StableHlo.after hostOps0 (fun b => m (c, b)) (Proc.devRef .tc main_call0_v1) = _
  after_results; rfl

theorem V_v8 (c : Dev nD) : (V m c main_call0_v8 : S1x1.Idx → Elt F .f32)
    = shapeCast S1x1 (Host.powf (broadcastInDim S1 ![] bcast_S_S1
          (Host.divf (Host.sqrt (constant S_ .f32 0x46000000#32))
            (Host.log (addf (constant S_ .f32 0x3F800000#32) (constant S_ .f32 0x46000000#32)))))
        (m ((c : Thread nD τ).loc main_arg3))) shapeCasts_S1_S1x1 := by
  show StableHlo.after hostOps0 (fun b => m (c, b)) (Proc.devRef .tc main_call0_v8) = _
  after_results; rfl

end terms

/-! ## Read at an entry, on the extended reals -/

/-- Merging the two leading axes keeps the row-major position: row i·2048 + s of the merged matrix is (i, s). -/
theorem merged_apply (a0 : Vec Ideal S4x2048x2048 .f32) (i : Fin 4) (s : Fin 2048) (d : Fin 2048) :
    merged a0 (ix2 (rowIx i s) d) = a0 (ix3 i s d) :=
  shapeCast_apply a0 shapeCasts_S4x2048x2048_S8192x2048 _ _ (by
    rw [Shape.rowMajor_val_two, Shape.rowMajor_val_three]
    show (i.val * 2048 + s.val) * 2048 + d.val = (i.val * 2048 + s.val) * 2048 + d.val
    rfl)

/-- A sum along the last axis kept as a column, at (row, 0): the zero word plus the row's total. -/
theorem rowSums_apply (y : Vec Ideal S8192x2048 .f32) (row : Fin 8192) :
    broadcastInDim S8192x1 ![0] bcast_S8192_S8192x1_0
        (Host.reduceAdd (F := Ideal) y (constant (F := Ideal) S_ .f32 0x00000000#32) reducesTo_S8192x2048_S8192_d1 h_S_)
        (ix2 row (0 : Fin 1))
      = zeroW + ∑ d : Fin 2048, y (ix2 row d) := by
  have hb : ∀ z : S8192.Idx → EReal,
      broadcastInDim S8192x1 ![0] bcast_S8192_S8192x1_0 z (ix2 row (0 : Fin 1)) = z (ix1 row) := fun z =>
    broadcastInDim_apply (s := S8192) (t := S8192x1) ![0] bcast_S8192_S8192x1_0 z (ix2 row (0 : Fin 1)) (ix1 row) (by
      intro a
      match a with
      | ⟨0, _⟩ => show row.val = if (8192 : Nat) = 1 then 0 else row.val; rw [if_neg (by decide)])
  rw [hb]
  simp only [Host.reduceAdd, Ideal.hostReduceAdd_def]
  rw [Ideal.hostReduceAdd_single reducesTo_S8192x2048_S8192_d1 (by decide)]
  refine congrArg (_ + ·) (Finset.sum_congr rfl fun k _ => ?_)
  refine congrArg y (funext fun a => Fin.ext ?_)
  match a with
  | ⟨0, _⟩ => rfl
  | ⟨1, _⟩ => rfl

/-- A sum along the first axis kept as a row, at (0, col): the zero word plus the column's total. -/
theorem colSums_apply (y : Vec Ideal S2048x8192 .f32) (col : Fin 8192) :
    broadcastInDim S1x8192 ![1] bcast_S8192_S1x8192_1
        (Host.reduceAdd (F := Ideal) y (constant (F := Ideal) S_ .f32 0x00000000#32) reducesTo_S2048x8192_S8192_d0 h_S_)
        (ix2 (0 : Fin 1) col)
      = zeroW + ∑ d : Fin 2048, y (ix2 d col) := by
  have hb : ∀ z : S8192.Idx → EReal,
      broadcastInDim S1x8192 ![1] bcast_S8192_S1x8192_1 z (ix2 (0 : Fin 1) col) = z (ix1 col) := fun z =>
    broadcastInDim_apply (s := S8192) (t := S1x8192) ![1] bcast_S8192_S1x8192_1 z (ix2 (0 : Fin 1) col) (ix1 col) (by
      intro a
      match a with
      | ⟨0, _⟩ => show col.val = if (8192 : Nat) = 1 then 0 else col.val; rw [if_neg (by decide)])
  rw [hb]
  simp only [Host.reduceAdd, Ideal.hostReduceAdd_def]
  rw [Ideal.hostReduceAdd_single reducesTo_S2048x8192_S8192_d0 (by decide)]
  refine congrArg (_ + ·) (Finset.sum_congr rfl fun k _ => ?_)
  refine congrArg y (funext fun a => Fin.ext ?_)
  match a with
  | ⟨0, _⟩ => rfl
  | ⟨1, _⟩ => rfl

/-- The scale at its one entry: the base's logarithm is of 1.0 + 8192.0, which is 8193.0. -/
theorem scale_apply (a3 : Vec Ideal S1 .f32) :
    shapeCast S1x1 (Host.powf (F := Ideal) (broadcastInDim S1 ![] bcast_S_S1
          (Host.divf (F := Ideal) (Host.sqrt (F := Ideal) (constant (F := Ideal) S_ .f32 0x46000000#32))
            (Host.log (F := Ideal) (addf (constant (F := Ideal) S_ .f32 0x3F800000#32) (constant (F := Ideal) S_ .f32 0x46000000#32)))))
        a3) shapeCasts_S1_S1x1 (ix2 (0 : Fin 1) (0 : Fin 1))
      = scaleOf (a3 (ix1 (0 : Fin 1))) := by
  rw [shapeCast_apply _ shapeCasts_S1_S1x1 (ix2 (0 : Fin 1) (0 : Fin 1)) (ix1 (0 : Fin 1)) (by
    rw [Shape.rowMajor_val_two, Shape.rowMajor_val_one]; rfl)]
  unfold scaleOf
  rw [← one_add_8192]
  rfl

end Cert.KernelIdeal.HostPrefix

end
-- ==== Proof.Final.lean ====
/-
  The result array of the idealized kernel after the run, on the extended reals.

  The output window's block (i, j) is written back once, after the last inner-block step, when it holds the
  normalised contraction for rows 2048·i … and columns 1024·j …  The 4 × 8 blocks tile the [8192, 8192] matrix, so
  the matrix ends holding, at every (row, col), the normalised contraction there (`matrix_eq`).  The one operation
  after the launch splits the row axis back into batch and sequence, so the result at (i, s, f) is the matrix at
  (2048·i + s, f) (`run`).
-/
import proofs.«114799_j48610439856164_2_alg».proof.Proof.Accum
import proofs.«114799_j48610439856164_2_alg».proof.Proof.HostPrefix
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Final

open Cert.KernelIdeal Cert.KernelIdeal.Gen Idealize.ShloMosaic.ValueIdx Cert.Spec Cert.KernelIdeal.Blocks Cert.KernelIdeal.Accum

variable (m : (ℓ : Loc nD τ sig) → Buf (Elt Ideal) ℓ) (ρ : Dev nD → PrngReg)

/-- Entry (row, col) of the result matrix: the normalised contraction, over the arrays the launch finds. -/
def outM (c : Dev nD) (row col : Fin 8192) : EReal :=
  Cert.Spec.norm (dot (lhsM m c) (rhsM m c) row col)
    ((V m c main_call0_v11 : S8192x1.Idx → Elt Ideal .f32) (ix2 row (0 : Fin 1)))
    ((V m c main_call0_v14 : S1x8192.Idx → Elt Ideal .f32) (ix2 (0 : Fin 1) col))
    ((V m c main_call0_v1 : S1x8192.Idx → Elt Ideal .f32) (ix2 (0 : Fin 1) col))
    ((V m c main_call0_v8 : S1x1.Idx → Elt Ideal .f32) (ix2 (0 : Fin 1) (0 : Fin 1)))

/-- The result matrix as an array. -/
def matrix (c : Dev nD) : S8192x8192.Idx → Elt Ideal .f32 :=
  fun i => outM m c ⟨(i 0).val, (i 0).isLt⟩ ⟨(i 1).val, (i 1).isLt⟩

/-- The output window's block index at point `t` is (i, j). -/
theorem idx6 : ∀ t : Fin cfg0.N, win0_6.index t (0 : Fin 2) = t.val / 32 ∧ win0_6.index t (1 : Fin 2) = t.val / 4 % 8 :=
  (by decide +kernel : ∀ t : Fin grid0.N, win0_6.index t (0 : Fin 2) = t.val / 32 ∧ win0_6.index t (1 : Fin 2) = t.val / 4 % 8)

/-- What a writing point writes back is its block of the result matrix. -/
theorem flushed_eq (c : Dev nD) (t : Fin cfg0.N) (hf : (cfg0.win 6).flush t = true) :
    (dats m 0 c).flushed 6 t = ((cfg0.win 6).blk t).view.read (Elt Ideal) (matrix m c) := by
  have hk : t.val % 4 = 3 := (flush0_6 t).mp hf
  have hi := idx6 t
  show (cfg0.win 6).cut (grid0.coords t) ((dats m 0 c).after 6 t) = _
  rw [after0_6]
  funext y
  obtain ⟨r, e, rfl⟩ : ∃ (r : Fin 2048) (e : Fin 1024), y = ix2 r e := ⟨y 0, y 1, eq_ix2 y⟩
  rw [View.read_apply]
  show outsAt0 m c t.val t.isLt (ix2 r e) = matrix m c (((cfg0.win 6).blk t).view.emb (ix2 r e))
  rw [out3 m c t hk r e]
  have he : (((cfg0.win 6).blk t).view.emb (ix2 r e) : S8192x8192.Idx) = ix2 (rowIx (pi t) r) (colIx (pj t) e) := by
    funext a
    apply Fin.ext
    match a with
    | ⟨0, _⟩ => show win0_6.index t 0 * 2048 + 1 * r.val = t.val / 32 * 2048 + r.val; rw [hi.1]; omega
    | ⟨1, _⟩ => show win0_6.index t 1 * 1024 + 1 * e.val = t.val / 4 % 8 * 1024 + e.val; rw [hi.2]; omega
  rw [he]
  rfl

/-- An entry of the matrix is in point `t`'s block iff each coordinate is in the block's range on its axis. -/
theorem mem_blk (t : Fin cfg0.N) (i : S8192x8192.Idx) :
    i ∈ ((cfg0.win 6).blk t).view.set ↔ ∀ a : Fin 2, win0_6.index t a * S2048x1024.size a ≤ (i a).val
      ∧ (i a).val < win0_6.index t a * S2048x1024.size a + S2048x1024.size a := by
  show i ∈ ((View.whole main_call0_v15).slice (win0_6.rect t)).set ↔ _
  rw [View.set_slice_whole, Rect.mem_set_unit]
  exact Iff.rfl

/-- Every entry lies in the block of the writing point of its row block and column block. -/
theorem cover (i : S8192x8192.Idx) :
    ∃ t : Fin cfg0.N, (cfg0.win 6).flush t = true ∧ i ∈ ((cfg0.win 6).blk t).view.set := by
  have hi0 : (i 0).val < 8192 := (i 0).isLt
  have hi1 : (i 1).val < 8192 := (i 1).isLt
  let t : Fin cfg0.N := ⟨(i 0).val / 2048 * 32 + (i 1).val / 1024 * 4 + 3, by rw [show cfg0.N = 128 from N_0]; omega⟩
  have ht : t.val = (i 0).val / 2048 * 32 + (i 1).val / 1024 * 4 + 3 := rfl
  obtain ⟨q0, q1⟩ := idx6 t
  refine ⟨t, (flush0_6 t).mpr (by rw [ht]; omega), ?_⟩
  rw [mem_blk]
  intro a
  match a with
  | ⟨0, _⟩ => show win0_6.index t (0 : Fin 2) * 2048 ≤ (i 0).val ∧ (i 0).val < win0_6.index t (0 : Fin 2) * 2048 + 2048; rw [q0, ht]; omega
  | ⟨1, _⟩ => show win0_6.index t (1 : Fin 2) * 1024 ≤ (i 1).val ∧ (i 1).val < win0_6.index t (1 : Fin 2) * 1024 + 1024; rw [q1, ht]; omega

/-- So the launch's output array ends holding the result matrix. -/
theorem matrix_eq (c : Dev nD) : (dats m 0 c).arrAt 6 cfg0.N = matrix m c :=
  (dats m 0 c).arrAt_eq_of_cover 6 (matrix m c) (flushed_eq m c) (cover)

/-- The program's result: the matrix with its row axis split back into batch and sequence. -/
theorem tail_eq (c : Dev nD) :
    Pipeline.afterTail₀ cfgs (dats m) 0 (V0 m) [hostOps1] c main_v0
      = shapeCast S4x2048x8192 (matrix m c) shapeCasts_S8192x8192_S4x2048x8192 := by
  unfold Pipeline.afterTail₀
  show StableHlo.after hostOps1 _ (Proc.devRef .tc main_v0) = _
  after_results
  have hw := (Pipeline.withArrays_arr spec0 launch0.win.arr_inj c (V0 m c)
    (fun w => (dats m 0 c).arrAt w cfg0.N) 6).trans (matrix_eq m c)
  funext i
  show shapeCast S4x2048x8192 (Pipeline.withArrays (cfgs 0).spec c (V0 m c) (fun w => (dats m 0 c).arrAt w (cfgs 0).N)
    (Proc.devRef .tc main_call0_v15)) shapeCasts_S8192x8192_S4x2048x8192 i = _
  rw [hw]

/-- An entry of the result matrix from the arguments: the arrays the launch finds, read back to the arguments. -/
theorem outM_eq (c : Dev nD) (i : Fin 4) (s : Fin 2048) (f : Fin 8192) :
    outM m c (rowIx i s) f
      = finalAt (fun i s d => m ((c : Thread nD τ).loc main_arg0) (ix3 i s d)) (fun d f => m ((c : Thread nD τ).loc main_arg1) (ix2 d f))
          (fun f => m ((c : Thread nD τ).loc main_arg2) (ix1 f)) (m ((c : Thread nD τ).loc main_arg3) (ix1 (0 : Fin 1))) i s f := by
  unfold outM finalAt
  refine norm_congr ?_ ?_ ?_ ?_ ?_
  · unfold dot lhsM rhsM
    refine Finset.sum_congr rfl fun d _ => ?_
    rw [HostPrefix.V_v0, HostPrefix.merged_apply, V_main_arg1]
  · rw [HostPrefix.V_v11]
    refine (HostPrefix.rowSums_apply _ (rowIx i s)).trans (congrArg (zeroW + ·) (Finset.sum_congr rfl fun d _ => ?_))
    refine (mulf_apply _ _ _).trans ?_
    rw [HostPrefix.merged_apply]
  · rw [HostPrefix.V_v14]
    exact HostPrefix.colSums_apply _ f
  · rw [HostPrefix.V_v1]
    exact shapeCast_a_1a_apply _ shapeCasts_S8192_S1x8192 (0 : Fin 1) f
  · rw [HostPrefix.V_v8]
    exact HostPrefix.scale_apply _

/-- The program's result array is the common final function of the four arguments. -/
theorem result_eq (c : Dev nD) :
    shapeCast S4x2048x8192 (matrix m c) shapeCasts_S8192x8192_S4x2048x8192
      = Cert.Spec.final (m ((c : Thread nD τ).loc main_arg0)) (m ((c : Thread nD τ).loc main_arg1))
          (m ((c : Thread nD τ).loc main_arg2)) (m ((c : Thread nD τ).loc main_arg3)) := by
  funext idx
  obtain ⟨i, s, f, rfl⟩ : ∃ (i : Fin 4) (s : Fin 2048) (f : Fin 8192), idx = ix3 i s f := ⟨idx 0, idx 1, idx 2, eq_ix3 idx⟩
  rw [shapeCast_apply (matrix m c) shapeCasts_S8192x8192_S4x2048x8192 (ix3 i s f) (ix2 (rowIx i s) f) (by
    rw [Shape.rowMajor_val_two, Shape.rowMajor_val_three]; rfl)]
  exact outM_eq m c i s f

/-- The run of the idealized kernel program: every weakly fair execution ends with the result array at the common
    final function of the arguments, and the arguments unchanged. -/
theorem run : θ_run defs (onTc (τ := τ) (main (F := Ideal))) ⟨m, fun _ => 0, ρ⟩ fun r => ∀ c : Dev nD,
      r.2.mem ((c.tc : Thread nD τ).loc main_v0)
        = Cert.Spec.final (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefValue.lean ====
/-
  The reference program's result, entry by entry, is the common final function of the four arguments.

  Read one operation at a time at (i, s, f): the product is the contraction Σ_d input(i, s, d) · w(d, f); the kept
  sums of squares are 0 + Σ_d input(i, s, d)² and 0 + Σ_d w(d, f)², spread over the result's shape; the bias is
  bias(f); and the scale is (√8192 / log 8193) ^ α(0).  They are combined by the same additions, subtraction,
  products and quotient, in the same order, as the common function spells.
-/
import proofs.«114799_j48610439856164_2_alg».proof.Proof.Gen.ReferenceIdeal.Read
import proofs.«114799_j48610439856164_2_alg».proof.Proof.Spec

noncomputable section

open Idealize.ShloMosaic Idealize.ShloMosaic.TcCoe Idealize.SL.Sem
open scoped BigOperators

namespace Cert.ReferenceIdeal.RefValue

open Cert.ReferenceIdeal Cert.ReferenceIdeal.Gen Cert.ReferenceIdeal.Read Idealize.ShloMosaic.ValueIdx Cert.Spec

theorem ref_eq (a0 : (⟨S4x2048x2048, .f32⟩ : BufTy).Contents (Elt Ideal)) (a1 : (⟨S2048x8192, .f32⟩ : BufTy).Contents (Elt Ideal)) (a2 : (⟨S8192, .f32⟩ : BufTy).Contents (Elt Ideal)) (a3 : (⟨S1, .f32⟩ : BufTy).Contents (Elt Ideal)) :
    val_main_v29 (F := Ideal) a0 a1 a2 a3 = Cert.Spec.final a0 a1 a2 a3 := by
  funext idx
  obtain ⟨i, s, f, rfl⟩ : ∃ (i : Fin 4) (s : Fin 2048) (f : Fin 8192), idx = ix3 i s f := ⟨idx 0, idx 1, idx 2, eq_ix3 idx⟩
  rw [final_apply]
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_cst_apply, val_main_cst_0_apply, val_main_cst_1_apply, val_main_cst_2_apply, val_main_cst_3_apply, val_main_cst_4_apply]
  have e1 : ∀ k : Fin 2048, lidx_main_v0 (ix3 i s f) k = ix3 i s k := by
    intro k; funext a; apply Fin.ext
    match a with
    | ⟨0, _⟩ => rfl
    | ⟨1, _⟩ => rfl
    | ⟨2, _⟩ => rfl
  have e2 : ∀ k : Fin 2048, ridx_main_v0 (ix3 i s f) k = ix2 k f := by
    intro k; funext a; apply Fin.ext
    match a with
    | ⟨0, _⟩ => rfl
    | ⟨1, _⟩ => rfl
  have e3 : ∀ k : Fin 2048, idx_main_v2 (idx_main_v3 (idx_main_v8 (ix3 i s f))) k = ix3 i s k := by
    intro k; funext a; apply Fin.ext
    match a with
    | ⟨0, _⟩ => rfl
    | ⟨1, _⟩ => rfl
    | ⟨2, _⟩ => rfl
  have e4 : ∀ k : Fin 2048, idx_main_v5 (idx_main_v6 (idx_main_v7 (idx_main_v9 (ix3 i s f)))) k = ix2 k f := by
    intro k; funext a; apply Fin.ext
    match a with
    | ⟨0, _⟩ => rfl
    | ⟨1, _⟩ => rfl
  have e5 : idx_main_v18 (idx_main_v19 (ix3 i s f)) = ix1 f := by
    funext a; apply Fin.ext
    match a with
    | ⟨0, _⟩ => rfl
  have e6 : idx_main_v27 (idx_main_v28 (ix3 i s f)) = ix1 (0 : Fin 1) := by
    funext a; apply Fin.ext
    match a with
    | ⟨0, _⟩ => rfl
  simp only [e1, e2, e3, e4, e5, e6, Ideal.mulf_def, Ideal.addf_def, Ideal.subf_def, Ideal.hostDivf_def, Ideal.ofBits_def,
    Ideal.hostUnary_sqrt_def, Ideal.hostUnary_log_def, Ideal.hostPowf_def]
  rfl

end Cert.ReferenceIdeal.RefValue

end
-- ==== Proof.lean ====
/-
  The kernel multiplies the [8192, 2048] matrix x of input rows by the [2048, 8192] weight matrix w, four inner blocks
  of 512 at a time, into an output block that stays in place while the partial products are added, and then
  normalises each entry y of the product by the squared distance between its row of x and its column of w,

      ( y² / ((|x_row|² + |w_col|² − 2·y) + ε) + bias(col) ) · (√8192 / log 8193)^α ;

  the reference computes the same expression with one contraction over all 2048 inner positions.  On the extended
  reals the two agree entry by entry: the four partial products added in turn onto zero are the whole contraction
  (sums re-associate with no side condition), the row and column sums of squares are the same sums, the literals 2.0
  and ε are the same words on both sides, and 1.0 + 8192.0 is 8193.0.  The finiteness precondition is never used.

  The three frame conjuncts are the generated frames (the reference's from its generated run); the idealization
  rewrote nothing, so its conjunct is trivial; the algebraic conjunct pairs the kernel's run, read to the common final
  function of the arguments (Proof/Final.lean), with the reference's run, read to the same function
  (Proof/RefValue.lean), from memories that agree on the arguments.
-/
import proofs.«114799_j48610439856164_2_alg».proof.Defs
import proofs.«114799_j48610439856164_2_alg».proof.Proof.Gen.Kernel
import proofs.«114799_j48610439856164_2_alg».proof.Proof.Gen.Kernel.Skeleton
import proofs.«114799_j48610439856164_2_alg».proof.Proof.Gen.Kernel.Launch
import proofs.«114799_j48610439856164_2_alg».proof.Proof.Gen.Kernel.Points
import proofs.«114799_j48610439856164_2_alg».proof.Proof.Gen.Kernel.Frame
import proofs.«114799_j48610439856164_2_alg».proof.Proof.Gen.KernelIdeal
import proofs.«114799_j48610439856164_2_alg».proof.Proof.Gen.KernelIdeal.Skeleton
import proofs.«114799_j48610439856164_2_alg».proof.Proof.Gen.KernelIdeal.Launch
import proofs.«114799_j48610439856164_2_alg».proof.Proof.Gen.KernelIdeal.Points
import proofs.«114799_j48610439856164_2_alg».proof.Proof.Gen.KernelIdeal.Frame
import proofs.«114799_j48610439856164_2_alg».proof.Proof.Gen.ReferenceIdeal
import proofs.«114799_j48610439856164_2_alg».proof.Proof.Gen.ReferenceIdeal.Read
import proofs.«114799_j48610439856164_2_alg».proof.Proof.Gen.Pre_finite_inputs
import proofs.«114799_j48610439856164_2_alg».proof.Proof.Final
import proofs.«114799_j48610439856164_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the common final function of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
